-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x256 .f32) (main_arg1 : IVec S2x1600000 32) (main_arg2 : FVec F S256x64 .f32) (main_arg3 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S100000x64 : Shape := ⟨2, ![100000, 64]⟩
abbrev S5000x256 : Shape := ⟨2, ![5000, 256]⟩
abbrev S5000x64 : Shape := ⟨2, ![5000, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S10000x64 : Shape := ⟨2, ![10000, 64]⟩

abbrev nBuf : Space → Nat
  | .hbm => 62
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S100000x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S1700000x1, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1x64, .f32⟩
  | .hbm, ⟨61, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S5000x256_S256x64_S5000x64_1_0_0_1_n_n_wf : DotDims.WF S5000x256 S256x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S100000x64 : Shape := ⟨2, ![100000, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 66
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S100000x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S1700000x1, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call1_cst : Ref sig .tc := ⟨.hbm, 63, rfl⟩
abbrev main_call1_v0 : Ref sig .tc := ⟨.hbm, 64, rfl⟩
abbrev main_v48 : Ref sig .tc := ⟨.hbm, 65, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x64_S100000x64_1_0_0_1_n_n_wf : DotDims.WF S100000x256 S256x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its RESULT named. The program is two pipelined regions with stretches of host
  operations between them; its run is a fold of buffer contents through the five segments (region, three host
  stretches, region), and every buffer that is not scoped to a region ends at the last fold's contents. The frame
  theorem reads only the four argument arrays out of that final state; here the result array is read out as well:
  it ends at the last fold's contents of the second region's output array. What that content is, as a function of
  the arguments, is the business of the modules that import this one.
-/
import proofs.«126127_j43026982371787_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the segments' implicit arguments are found by unifying the conclusion, which takes unfolding plain definitions
-- in a metavariable's type
set_option backward.isDefEq.respectTransparency.types false in
/-- Every weakly fair execution of the program terminates, nothing faulting, and EVERY buffer that is not scoped to
    a region ends at the contents the last boundary of the fold gives it: the launch over the five segments, the
    last thread state read against the final state. -/
theorem run_unscoped : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The same run with the result array and the four argument arrays read out: the result ends at the last fold's
    contents of the second region's output array, the arguments as launched (no host operation and no region
    writes an argument, so the fold at an argument walks back to the launch memory). -/
theorem run_result : θ_run defs (onTc (τ := τ) (main (F := F))) ⟨m, fun _ => 0, ρ⟩ (fun r => ∀ c : Dev nD,
      r.2.mem ((c.tc : Thread nD τ).loc main_v46) = W5 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨h c _ (mem_uc main_v46 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)
    (run_unscoped m ρ)

end Cert.KernelIdeal.Whole

end
-- ==== Proof.Bodies.lean ====
/-
  The two kernel bodies, read at one index of the block they store, on the extended reals.
  The first body multiplies a 5000 × 256 block of the features by the whole 256 × 64 weight matrix into a zero
  accumulator (after narrowing both operands to bf16, which changes nothing at this instance): entry (r, c) of the
  stored block is the sum over k < 256 of x(r, k) · w(k, c).
  The second body adds the 1 × 64 bias row to every row of a 10000 × 64 block and takes the maximum with zero:
  entry (r, c) is max (a(r, c) + b(0, c), 0).
-/
import proofs.«126127_j43026982371787_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Bodies

open Cert.KernelIdeal Cert.KernelIdeal.Gen Idealize.ShloMosaic

/-! ## The matrix product's operand indices -/

/-- The left operand's index at output index (r, c) and contraction index q is (r, q): its row. -/
theorem lhs_row (j : S5000x64.Idx) (q : dot_S5000x256_S256x64_S5000x64_1_0_0_1_n_n.contr.Idx) :
    (dot_S5000x256_S256x64_S5000x64_1_0_0_1_n_n.lhsIdx j q 0).val = (j 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- … and its column, the contraction index. -/
theorem lhs_col (j : S5000x64.Idx) (q : dot_S5000x256_S256x64_S5000x64_1_0_0_1_n_n.contr.Idx) :
    (dot_S5000x256_S256x64_S5000x64_1_0_0_1_n_n.lhsIdx j q 1).val = (q ⟨0, by decide⟩).val :=
  dot_S5000x256_S256x64_S5000x64_1_0_0_1_n_n.lhsIdx_val_of_single rfl j q
/-- The right operand's index is (q, c): its row, the contraction index, -/
theorem rhs_row (j : S5000x64.Idx) (q : dot_S5000x256_S256x64_S5000x64_1_0_0_1_n_n.contr.Idx) :
    (dot_S5000x256_S256x64_S5000x64_1_0_0_1_n_n.rhsIdx j q 0).val = (q ⟨0, by decide⟩).val :=
  dot_S5000x256_S256x64_S5000x64_1_0_0_1_n_n.rhsIdx_val_of_single rfl j q
/-- … and its column. -/
theorem rhs_col (j : S5000x64.Idx) (q : dot_S5000x256_S256x64_S5000x64_1_0_0_1_n_n.contr.Idx) :
    (dot_S5000x256_S256x64_S5000x64_1_0_0_1_n_n.rhsIdx j q 1).val = (j 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- (r, k) in the block of features. -/
abbrev inBlk (j : S5000x64.Idx) (k : Fin 256) : S5000x256.Idx := fun a => match a with
  | ⟨0, _⟩ => ⟨(j 0).val, (j 0).isLt⟩
  | ⟨1, _⟩ => ⟨k.val, k.isLt⟩
/-- (k, c) in the weights. -/
abbrev wtBlk (j : S5000x64.Idx) (k : Fin 256) : S256x64.Idx := fun a => match a with
  | ⟨0, _⟩ => ⟨k.val, k.isLt⟩
  | ⟨1, _⟩ => ⟨(j 1).val, (j 1).isLt⟩
/-- (0, c) in the bias row. -/
abbrev rowBlk (j : S10000x64.Idx) : S1x64.Idx := fun a => match a with
  | ⟨0, _⟩ => ⟨0, Nat.one_pos⟩
  | ⟨1, _⟩ => ⟨(j 1).val, (j 1).isLt⟩

/-! ## The bodies -/

/-- The first body's stored block at (r, c): the row of the features block against the column of the weights. -/
theorem product_at (x0 : Vec Ideal S5000x256 .f32) (x1 : Vec Ideal S256x64 .f32) (j : S5000x64.Idx) :
    k0_pay1 (F := Ideal) x0 x1 j = ∑ k : Fin 256, x0 (inBlk j k) * x1 (wtBlk j k) := by
  unfold k0_pay1
  simp only [matmul]
  rw [Ideal.matmul_constant_zero_apply, ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx j ((ValueIdx.contrEquiv1 dot_S5000x256_S256x64_S5000x64_1_0_0_1_n_n 256 rfl rfl).symm k) = inBlk j k := funext fun a => Fin.ext (by
    match a with
    | ⟨0, _⟩ => exact lhs_row _ _
    | ⟨1, _⟩ => exact (lhs_col _ _).trans hk)
  have er : dot_S5000x256_S256x64_S5000x64_1_0_0_1_n_n.rhsIdx j ((ValueIdx.contrEquiv1 dot_S5000x256_S256x64_S5000x64_1_0_0_1_n_n 256 rfl rfl).symm k) = wtBlk j k := funext fun a => Fin.ext (by
    match a with
    | ⟨0, _⟩ => exact (rhs_row _ _).trans hk
    | ⟨1, _⟩ => exact rhs_col _ _)
  rw [el, er]
  rfl

/-- The second body's stored block at (r, c): the block's entry plus the bias under it, against zero. -/
theorem biasRelu_at (x0 : Vec Ideal S10000x64 .f32) (x1 : Vec Ideal S1x64 .f32) (j : S10000x64.Idx) :
    k1_pay1 (F := Ideal) x0 x1 j = max (x0 j + x1 (rowBlk j)) (Ideal.ofBits .f32 0x00000000#32) := by
  unfold k1_pay1
  simp only [shapeCast_self]
  rw [ValueIdx.maximumf_apply, ValueIdx.addf_apply, ValueIdx.broadcast_apply,
    broadcastTo_apply x1 broadcasts_S1x64_S10000x64 j (rowBlk j) (fun a => by
      match a with
      | ⟨0, _⟩ => rfl
      | ⟨1, _⟩ => rfl)]
  rfl

end Cert.KernelIdeal.Bodies

end
-- ==== Proof.Layer.lean ====
/-
  What the layer computes, as functions of whole arrays read index by index on the extended reals.
  `linear X W` is the matrix product: entry (r, c) is the sum over k < 256 of X(r, k) · W(k, c).
  `biasRelu A b` adds the bias row to every row of A and takes the maximum with zero: entry (r, c) is
  max (A(r, c) + b(0, c), 0). The zero is kept as the float word both programs print for it, so that it is the
  same term on both sides and is never evaluated.
-/
import Idealize.ShloMosaic.PureOps.Ideal
import Idealize.ShloMosaic.Lib.ValueIdx

noncomputable section

namespace Cert.Layer

open Idealize.ShloMosaic

/-- Node features: 100000 nodes × 256 input features. -/
abbrev SIn : Shape := ⟨2, ![100000, 256]⟩
/-- The weight matrix: 256 × 64. -/
abbrev SWt : Shape := ⟨2, ![256, 64]⟩
/-- Transformed features, aggregates and the result: 100000 × 64. -/
abbrev SOut : Shape := ⟨2, ![100000, 64]⟩
/-- The bias as one row: 1 × 64. -/
abbrev SRow : Shape := ⟨2, ![1, 64]⟩

/-- (r, k): the entry of the features that output entry `i` = (r, c) meets at contraction index k. -/
abbrev inAt (i : SOut.Idx) (k : Fin 256) : SIn.Idx := fun a => match a with
  | ⟨0, _⟩ => ⟨(i 0).val, (i 0).isLt⟩
  | ⟨1, _⟩ => ⟨k.val, k.isLt⟩
/-- (k, c): the entry of the weights that output entry `i` = (r, c) meets at contraction index k. -/
abbrev wtAt (i : SOut.Idx) (k : Fin 256) : SWt.Idx := fun a => match a with
  | ⟨0, _⟩ => ⟨k.val, k.isLt⟩
  | ⟨1, _⟩ => ⟨(i 1).val, (i 1).isLt⟩
/-- (0, c): the bias entry under output entry `i` = (r, c). -/
abbrev rowAt (i : SOut.Idx) : SRow.Idx := fun a => match a with
  | ⟨0, _⟩ => ⟨0, Nat.one_pos⟩
  | ⟨1, _⟩ => ⟨(i 1).val, (i 1).isLt⟩

/-- The matrix product, entry by entry. -/
def linear (X : SIn.Idx → EReal) (Wt : SWt.Idx → EReal) : SOut.Idx → EReal :=
  fun i => ∑ k : Fin 256, X (inAt i k) * Wt (wtAt i k)

/-- Bias added to every row, then the maximum with zero. -/
def biasRelu (A : SOut.Idx → EReal) (b : SRow.Idx → EReal) : SOut.Idx → EReal :=
  fun i => max (A i + b (rowAt i)) (Ideal.ofBits .f32 0x00000000#32)

end Cert.Layer

end
-- ==== Proof.Linear.lean ====
/-
  The first region's output array after the region: the matrix product of the features and the weights, whole.
  The grid has 20 points; point t multiplies rows 5000·t … 5000·t + 4999 of the features by the whole weight matrix
  and writes those rows of the output. So what point t writes back is the block of the whole product at its rows
  (the body's sum over k, with the block's row moved to the array's row), and since every row r lies in the block
  of point r / 5000 the blocks cover the array: it ends holding the product, entry by entry.
-/
import proofs.«126127_j43026982371787_1_alg».proof.Proof.Gen.KernelIdeal.Frame
import proofs.«126127_j43026982371787_1_alg».proof.Proof.Bodies
import proofs.«126127_j43026982371787_1_alg».proof.Proof.Layer

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

/-- Every block is read from its buffer's origin. -/
theorem origin : (![0, 0] : Fin 2 → Nat) = fun _ => 0 := funext fun a => by fin_cases a <;> rfl

/-- The index maps over the grid: the features' block and the output's block sit at the same block row, in block
    column zero; the weights' one block is at the origin; there are 20 block rows. -/
theorem blocks_at : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every block row is some point's. -/
theorem block_of_row : ∀ q : Fin 20, ∃ t : Fin cfg0.N, win0_2.index t = ![q.val, 0] :=
  (by decide +kernel : ∀ q : Fin 20, ∃ t : Fin grid0.N, win0_2.index t = ![q.val, 0])

/-- What point `t` writes back is the block of the whole product at its rows. -/
theorem flushed_eq (c : Dev nD) (t : Fin cfg0.N) :
    (dat0 V c).flushed 2 t = ((cfg0.win 2).blk t).view.read (Elt Ideal) (Cert.Layer.linear (V c main_arg0) (V c main_arg2)) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x64) origin]
  obtain ⟨e0, e1, e2, e3, e4, e5⟩ := blocks_at t
  funext j
  show k0_pay1 (iblk0 V c 0 t) (iblk0 V c 1 t) j = Cert.Layer.linear (V c main_arg0) (V c main_arg2) (((cfg0.win 2).blk t).view.emb j)
  refine (Bodies.product_at (iblk0 V c 0 t) (iblk0 V c 1 t) j).trans ?_
  unfold Cert.Layer.linear
  refine Finset.sum_congr rfl fun k _ => ?_
  have h0 : ((cfg0.win 0).blk t).view.emb (Bodies.inBlk j k) = Cert.Layer.inAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (Bodies.wtBlk j k) = Cert.Layer.wtAt (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega
  have hx : iblk0 V c 0 t (Bodies.inBlk j k) = (V c main_arg0 : S100000x256.Idx → EReal) (Cert.Layer.inAt (((cfg0.win 2).blk t).view.emb j) k) :=
    congrArg (V c main_arg0) h0
  have hw : iblk0 V c 1 t (Bodies.wtBlk j k) = (V c main_arg2 : S256x64.Idx → EReal) (Cert.Layer.wtAt (((cfg0.win 2).blk t).view.emb j) k) :=
    congrArg (V c main_arg2) h1
  exact congrArg₂ (fun a b : EReal => a * b) hx hw

/-- An entry of the array is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row r is in the block of the point at block row r / 5000. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := block_of_row ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region is the whole matrix product of the features and the weights as the region
    finds them. -/
theorem array_eq (c : Dev nD) :
    (dat0 V c).arrAt 2 cfg0.N = Cert.Layer.linear (V c main_arg0) (V c main_arg2) :=
  (dat0 V c).arrAt_eq_of_cover 2 _ (fun t _ => flushed_eq V c t) covered

end Cert.KernelIdeal.Linear

end
-- ==== Proof.Activation.lean ====
/-
  The second region's output array after the region: bias added, maximum with zero, whole.
  The grid has 10 points; point t reads rows 10000·t … 10000·t + 9999 of the aggregate and the one bias row, and
  writes the same rows of the output. What point t writes back is the block of the whole array
  max (aggregate + bias, 0) at its rows, and every row r lies in the block of point r / 10000, so the blocks cover
  the array.
-/
import proofs.«126127_j43026982371787_1_alg».proof.Proof.Gen.KernelIdeal.Frame
import proofs.«126127_j43026982371787_1_alg».proof.Proof.Bodies
import proofs.«126127_j43026982371787_1_alg».proof.Proof.Layer

set_option maxRecDepth 16384

noncomputable section

namespace Cert.KernelIdeal.Activation

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

/-- Every block is read from its buffer's origin. -/
theorem origin : (![0, 0] : Fin 2 → Nat) = fun _ => 0 := funext fun a => by fin_cases a <;> rfl

/-- The index maps over the grid: the aggregate's block and the output's block sit at the same block row, in block
    column zero; the bias row's one block is at the origin; there are 10 block rows. -/
theorem blocks_at : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block row is some point's. -/
theorem block_of_row : ∀ q : Fin 10, ∃ t : Fin cfg1.N, win1_2.index t = ![q.val, 0] :=
  (by decide +kernel : ∀ q : Fin 10, ∃ t : Fin grid1.N, win1_2.index t = ![q.val, 0])

/-- What point `t` writes back is the block of the whole biased, rectified array at its rows. -/
theorem flushed_eq (c : Dev nD) (t : Fin cfg1.N) :
    (dat1 V c).flushed 2 t = ((cfg1.win 2).blk t).view.read (Elt Ideal) (Cert.Layer.biasRelu (V c main_v44) (V c main_v45)) := by
  show (cfg1.win 2).cut (grid1.coords t) ((dat1 V c).after 2 t) = _
  rw [after1_2]
  unfold out1_2
  rw [View.canon_unit_zero origin]
  simp only [View.ld_unit_zero (S := S10000x64) origin, View.ld_unit_zero (S := S1x64) origin]
  obtain ⟨e0, e1, e2, e3, e4, e5⟩ := blocks_at t
  funext j
  show k1_pay1 (iblk1 V c 0 t) (iblk1 V c 1 t) j = Cert.Layer.biasRelu (V c main_v44) (V c main_v45) (((cfg1.win 2).blk t).view.emb j)
  refine (Bodies.biasRelu_at (iblk1 V c 0 t) (iblk1 V c 1 t) j).trans ?_
  unfold Cert.Layer.biasRelu
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (Bodies.rowBlk j) = Cert.Layer.rowAt (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  have hx : iblk1 V c 0 t j = (V c main_v44 : S100000x64.Idx → EReal) (((cfg1.win 2).blk t).view.emb j) :=
    congrArg (V c main_v44) h0
  have hb : iblk1 V c 1 t (Bodies.rowBlk j) = (V c main_v45 : S1x64.Idx → EReal) (Cert.Layer.rowAt (((cfg1.win 2).blk t).view.emb j)) :=
    congrArg (V c main_v45) h1
  exact congrArg₂ (fun a b : EReal => max (a + b) (Ideal.ofBits .f32 0x00000000#32)) hx hb

/-- An entry of the array is in point `t`'s block iff each coordinate is in the block's range on its axis. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v46).slice (win1_2.rect t)).set ↔ _
  rw [View.set_slice_whole, Rect.mem_set_unit]
  exact Iff.rfl

/-- Row r is in the block of the point at block row r / 10000. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := block_of_row ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the region is the aggregate plus the bias row, against zero, whole, of the two input
    arrays as the region finds them. -/
theorem array_eq (c : Dev nD) :
    (dat1 V c).arrAt 2 cfg1.N = Cert.Layer.biasRelu (V c main_v44) (V c main_v45) :=
  (dat1 V c).arrAt_eq_of_cover 2 _ (fun t _ => flushed_eq V c t) covered

end Cert.KernelIdeal.Activation

end
-- ==== Proof.GraphKernel.lean ====
/-
  The graph side of the layer, as ONE function of the transformed node features `h` (n × 64) and the edge array
  (2 × E): everything the program computes between the linear transform and the bias.
  Every node gets a self loop, so there are E + n messages: message j goes from node `sources j` to node `targets j`.
  The degree of a node is the number of messages it receives (a scatter-add of ones over the targets); its weight
  is the reciprocal square root of the degree where the degree is positive, zero elsewhere. Message j carries row
  `sources j` of `h` (a gather; a negative node number counts from the end) scaled by the product of its two
  end nodes' weights, and `aggregate` adds every message into its target's row (a scatter-add into zeros).
  Nothing here is opened by the proofs that use it: both programs apply this same function, and the certificate
  needs only that equal `h` give equal aggregates.
-/
import proofs.«126127_j43026982371787_1_alg».proof.KernelIdeal
import proofs.«126127_j43026982371787_1_alg».proof.Proof.Gen.KernelIdeal

noncomputable section

namespace Cert.KernelIdeal.Graph

open Cert.KernelIdeal Cert.KernelIdeal.Gen Idealize.ShloMosaic Idealize.ShloMosaic.TcCoe Idealize.SL.Sem Idealize.ShloMosaic.StableHlo

variable {F : FTy → Type} [FloatOps F]

/-- The node each message leaves: the edge array's first row, then every node once (the self loops). -/
def sources (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The node each message reaches: the edge array's second row, then every node once. -/
def targets (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node number counts from the end: the number of nodes is added to it. -/
def wrapped (x : (⟨S1700000, .i32⟩ : BufTy).Contents (Elt F)) : (⟨S1700000, .i32⟩ : BufTy).Contents (Elt F) :=
  select (cmpi .slt x (broadcastInDim S1700000 ![] bcast_S_S1700000 (constantI S_ 32 0#32))) (addi x (broadcastInDim S1700000 ![] bcast_S_S1700000 (constantI S_ 32 100000#32))) x

/-- How many messages each node receives: ones added up over the targets. -/
def degree (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (targets (F := F) e)) (broadcastInDim S1700000 ![] bcast_S_S1700000 (constant S_ .f32 0x3F800000#32))

/-- A node's weight: the reciprocal square root of its degree where that is positive, zero elsewhere. -/
def weight (e : (⟨S2x1600000, .i32⟩ : BufTy).Contents (Elt F)) : (⟨S100000, .f32⟩ : BufTy).Contents (Elt F) :=
  select (cmpf (F := F) .ogt (degree (F := F) e) (broadcastInDim S100000 ![] bcast_S_S100000 (constant S_ .f32 0x00000000#32))) (Host.rsqrt (degree (F := F) e)) (broadcastInDim S100000 ![] bcast_S_S100000 (constant S_ .f32 0x00000000#32))

/-- A message's scale: the product of the weights of the node it leaves and the node it reaches. -/
def scale (e : (⟨S2x1600000, .i32⟩ : BufTy).Contents (Elt F)) : (⟨S1700000, .f32⟩ : BufTy).Contents (Elt F) :=
  mulf (Host.gather gather_S100000_S1700000x1_S1700000_n_0_n_n_0_1_1 (weight (F := F) e) (broadcastInDim S1700000x1 ![0] bcast_S1700000_S1700000x1_0 (wrapped (F := F) (sources (F := F) e)))) (Host.gather gather_S100000_S1700000x1_S1700000_n_0_n_n_0_1_1 (weight (F := F) e) (broadcastInDim S1700000x1 ![0] bcast_S1700000_S1700000x1_0 (wrapped (F := F) (targets (F := F) e))))

/-- Every message — the row of `h` at its source, scaled — added into the row of its target. -/
def aggregate (h : (⟨S100000x64, .f32⟩ : BufTy).Contents (Elt F)) (e : (⟨S2x1600000, .i32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (targets (F := F) e)) (mulf (Host.gather gather_S100000x64_S1700000x1_S1700000x64_1_0_n_n_0_1_164 h (broadcastInDim S1700000x1 ![0] bcast_S1700000_S1700000x1_0 (wrapped (F := F) (sources (F := F) e)))) (broadcastInDim S1700000x64 ![0, 1] bcast_S1700000x1_S1700000x64_0_1 (broadcastInDim S1700000x1 ![0] bcast_S1700000_S1700000x1_0 (scale (F := F) e))))

end Cert.KernelIdeal.Graph

end
-- ==== Proof.Between.lean ====
/-
  Between the two regions. The first region leaves the transformed features in its output array and every other
  buffer as launched; the host operations that follow compute the graph side and reshape the bias to one row; the
  second region is entered on their results. So the aggregate the second region reads is `aggregate` of what the
  first region wrote and the edge array, and its bias row is the bias as a 1 × 64 array.
-/
import proofs.«126127_j43026982371787_1_alg».proof.Proof.Gen.KernelIdeal.Frame
import proofs.«126127_j43026982371787_1_alg».proof.Proof.GraphKernel
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.ShloMosaic.Tactic Idealize.ShloMosaic.StableHlo
open Idealize.SL Idealize.SL.Sem

variable {F : FTy → Type} [FloatOps F]
variable (m : (ℓ : Loc nD τ sig) → Buf (Elt F) ℓ) (ρ : Dev nD → PrngReg)

set_option maxHeartbeats 4000000 in
/-- The aggregate as the second region finds it: the graph function of the first region's output and of the edge
    array, both as the first region leaves them. -/
theorem aggregate_eq (c : Dev nD) :
    V4 m ρ c main_v44 = Graph.aggregate (F := F) (V1 m ρ c main_v0) (V1 m ρ c main_arg1) := by
  show StableHlo.after hostOps1_2 (StableHlo.after hostOps1_1 (StableHlo.after hostOps1 (W1 m ρ c))) (Proc.devRef .tc main_v44) = _
  after_results_simp <;> rfl

set_option maxHeartbeats 4000000 in
/-- The bias row as the second region finds it: the bias, as the first region leaves it, as a 1 × 64 array. -/
theorem bias_eq (c : Dev nD) :
    V4 m ρ c main_v45 = shapeCast S1x64 (V1 m ρ c main_arg3) shapeCasts_S64_S1x64 := by
  show StableHlo.after hostOps1_2 (StableHlo.after hostOps1_1 (StableHlo.after hostOps1 (W1 m ρ c))) (Proc.devRef .tc main_v45) = _
  after_results_simp <;> rfl

/-- The first region writes only its output array: the edge array and the bias are as launched after it. -/
theorem edges_kept (c : Dev nD) : V1 m ρ c main_arg1 = m ((c : Thread nD τ).loc main_arg1) :=
  W1_of_ne m ρ c main_arg1 (by decide)
theorem bias_kept (c : Dev nD) : V1 m ρ c main_arg3 = m ((c : Thread nD τ).loc main_arg3) :=
  W1_of_ne m ρ c main_arg3 (by decide)

/-- The first region's output array after it is what its write-backs leave. -/
theorem features_eq (c : Dev nD) : V1 m ρ c main_v0 = (dat0 (V0 m ρ) c).arrAt 2 cfg0.N :=
  (hF0 m ρ c 2).symm

end Cert.KernelIdeal.Between

end
-- ==== Proof.KernelResult.lean ====
/-
  The idealized kernel's result as one function of its four arguments.
  The result array ends at what the second region's write-backs leave: the aggregate it was entered on plus the
  bias row, against zero. The aggregate is the graph function of the first region's output — the matrix product of
  the features and the weights as launched — and of the edge array as launched; the bias row is the launched bias
  as a 1 × 64 array.
-/
import proofs.«126127_j43026982371787_1_alg».proof.Proof.KernelRun
import proofs.«126127_j43026982371787_1_alg».proof.Proof.Linear
import proofs.«126127_j43026982371787_1_alg».proof.Proof.Activation
import proofs.«126127_j43026982371787_1_alg».proof.Proof.Between

set_option maxRecDepth 16384

noncomputable section

namespace Cert.KernelIdeal.Whole

open Cert.KernelIdeal Cert.KernelIdeal.Gen
open Idealize.ShloMosaic Idealize.ShloMosaic.TcCoe
open Idealize.SL Idealize.SL.Sem

/-- The kernel's result as a function of the contents of its four arguments. -/
def result (x : S100000x256.Idx → EReal) (e : (⟨S2x1600000, .i32⟩ : BufTy).Contents (Elt Ideal)) (w : S256x64.Idx → EReal)
    (b : S64.Idx → EReal) : S100000x64.Idx → EReal :=
  Cert.Layer.biasRelu (Graph.aggregate (F := Ideal) (Cert.Layer.linear x w) e) (shapeCast S1x64 b shapeCasts_S64_S1x64)

variable (m : (ℓ : Loc nD τ sig) → Buf (Elt Ideal) ℓ) (ρ : Dev nD → PrngReg)

/-- The aggregate and the bias row the second region is entered on, from the launch contents. -/
theorem entered_on (c : Dev nD) :
    Cert.Layer.biasRelu (V4 m ρ c main_v44) (V4 m ρ c main_v45)
      = result (m ((c : Thread nD τ).loc main_arg0)) (m ((c : Thread nD τ).loc main_arg1)) (m ((c : Thread nD τ).loc main_arg2)) (m ((c : Thread nD τ).loc main_arg3)) :=
  congrArg₂ Cert.Layer.biasRelu
    ((Between.aggregate_eq m ρ c).trans (congrArg₂ (Graph.aggregate (F := Ideal))
      ((Between.features_eq m ρ c).trans (Linear.array_eq (V0 m ρ) c)) (Between.edges_kept m ρ c)))
    ((Between.bias_eq m ρ c).trans (congrArg (fun v => shapeCast S1x64 v shapeCasts_S64_S1x64) (Between.bias_kept m ρ c)))

/-- The last fold's contents of the result array is that function of the launch contents. -/
theorem final_eq (c : Dev nD) :
    W5 m ρ c (Proc.devRef .tc main_v46)
      = result (m ((c : Thread nD τ).loc main_arg0)) (m ((c : Thread nD τ).loc main_arg1)) (m ((c : Thread nD τ).loc main_arg2)) (m ((c : Thread nD τ).loc main_arg3)) :=
  ((W5_arr m ρ c 2).trans (Activation.array_eq (V4 m ρ) c)).trans (entered_on m ρ c)

end Cert.KernelIdeal.Whole

end
-- ==== Proof.GraphReference.lean ====
/-
  The graph side of the layer, as ONE function of the transformed node features `h` (n × 64) and the edge array
  (2 × E): everything the program computes between the linear transform and the bias.
  Every node gets a self loop, so there are E + n messages: message j goes from node `sources j` to node `targets j`.
  The degree of a node is the number of messages it receives (a scatter-add of ones over the targets); its weight
  is the reciprocal square root of the degree where the degree is positive, zero elsewhere. Message j carries row
  `sources j` of `h` (a gather; a negative node number counts from the end) scaled by the product of its two
  end nodes' weights, and `aggregate` adds every message into its target's row (a scatter-add into zeros).
  Nothing here is opened by the proofs that use it: both programs apply this same function, and the certificate
  needs only that equal `h` give equal aggregates.
-/
import proofs.«126127_j43026982371787_1_alg».proof.ReferenceIdeal
import proofs.«126127_j43026982371787_1_alg».proof.Proof.Gen.ReferenceIdeal

noncomputable section

namespace Cert.ReferenceIdeal.Graph

open Cert.ReferenceIdeal Cert.ReferenceIdeal.Gen Idealize.ShloMosaic Idealize.ShloMosaic.TcCoe Idealize.SL.Sem Idealize.ShloMosaic.StableHlo

variable {F : FTy → Type} [FloatOps F]

/-- The node each message leaves: the edge array's first row, then every node once (the self loops). -/
def sources (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The node each message reaches: the edge array's second row, then every node once. -/
def targets (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node number counts from the end: the number of nodes is added to it. -/
def wrapped (x : (⟨S1700000, .i32⟩ : BufTy).Contents (Elt F)) : (⟨S1700000, .i32⟩ : BufTy).Contents (Elt F) :=
  select (cmpi .slt x (broadcastInDim S1700000 ![] bcast_S_S1700000 (constantI S_ 32 0#32))) (addi x (broadcastInDim S1700000 ![] bcast_S_S1700000 (constantI S_ 32 100000#32))) x

/-- How many messages each node receives: ones added up over the targets. -/
def degree (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (targets (F := F) e)) (broadcastInDim S1700000 ![] bcast_S_S1700000 (constant S_ .f32 0x3F800000#32))

/-- A node's weight: the reciprocal square root of its degree where that is positive, zero elsewhere. -/
def weight (e : (⟨S2x1600000, .i32⟩ : BufTy).Contents (Elt F)) : (⟨S100000, .f32⟩ : BufTy).Contents (Elt F) :=
  select (cmpf (F := F) .ogt (degree (F := F) e) (broadcastInDim S100000 ![] bcast_S_S100000 (constant S_ .f32 0x00000000#32))) (Host.rsqrt (degree (F := F) e)) (broadcastInDim S100000 ![] bcast_S_S100000 (constant S_ .f32 0x00000000#32))

/-- A message's scale: the product of the weights of the node it leaves and the node it reaches. -/
def scale (e : (⟨S2x1600000, .i32⟩ : BufTy).Contents (Elt F)) : (⟨S1700000, .f32⟩ : BufTy).Contents (Elt F) :=
  mulf (Host.gather gather_S100000_S1700000x1_S1700000_n_0_n_n_0_1_1 (weight (F := F) e) (broadcastInDim S1700000x1 ![0] bcast_S1700000_S1700000x1_0 (wrapped (F := F) (sources (F := F) e)))) (Host.gather gather_S100000_S1700000x1_S1700000_n_0_n_n_0_1_1 (weight (F := F) e) (broadcastInDim S1700000x1 ![0] bcast_S1700000_S1700000x1_0 (wrapped (F := F) (targets (F := F) e))))

/-- Every message — the row of `h` at its source, scaled — added into the row of its target. -/
def aggregate (h : (⟨S100000x64, .f32⟩ : BufTy).Contents (Elt F)) (e : (⟨S2x1600000, .i32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (targets (F := F) e)) (mulf (Host.gather gather_S100000x64_S1700000x1_S1700000x64_1_0_n_n_0_1_164 h (broadcastInDim S1700000x1 ![0] bcast_S1700000_S1700000x1_0 (wrapped (F := F) (sources (F := F) e)))) (broadcastInDim S1700000x64 ![0, 1] bcast_S1700000x1_S1700000x64_0_1 (broadcastInDim S1700000x1 ![0] bcast_S1700000_S1700000x1_0 (scale (F := F) e))))

end Cert.ReferenceIdeal.Graph

end
-- ==== Proof.ReferenceResult.lean ====
/-
  The reference's result, read off its run: the maximum with zero of (the aggregate of the matrix product of the
  features and the weights) plus the bias broadcast to every row. The run states the result as one long term of the
  arguments; it is the graph function `aggregate` applied to the host's matrix product, under the last three
  operations, by unfolding.
-/
import proofs.«126127_j43026982371787_1_alg».proof.Proof.RefRun
import proofs.«126127_j43026982371787_1_alg».proof.Proof.GraphReference

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-- The reference's result as a function of its four arguments' contents. -/
def result (x : (⟨S100000x256, .f32⟩ : BufTy).Contents (Elt F)) (e : (⟨S2x1600000, .i32⟩ : BufTy).Contents (Elt F))
    (w : (⟨S256x64, .f32⟩ : BufTy).Contents (Elt F)) (b : (⟨S64, .f32⟩ : BufTy).Contents (Elt F)) : (⟨S100000x64, .f32⟩ : BufTy).Contents (Elt F) :=
  maximumf (addf (Graph.aggregate (F := F) (Host.dotGeneral dot_S100000x256_S256x64_S100000x64_1_0_0_1_n_n none x w) e)
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

set_option maxRecDepth 8192 in
/-- The run's term is that function of the launch contents of the arguments. -/
theorem res_eq (m : (ℓ : Loc nD τ sig) → Buf (Elt F) ℓ) (c : Dev nD) :
    ValueP.res_main_v48 m c = result (F := F) (m ((c.tc : Thread nD τ).loc main_arg0)) (m ((c.tc : Thread nD τ).loc main_arg1))
      (m ((c.tc : Thread nD τ).loc main_arg2)) (m ((c.tc : Thread nD τ).loc main_arg3)) := rfl

end Cert.ReferenceIdeal.Whole

end
-- ==== Proof.GraphSame.lean ====
/-
  The two programs compute the graph side by the same function: the same operations on the same literals, in the
  same order. Each program's text names its own copies of the shapes and of the operations' dimension records;
  the copies unfold to the same literals, so the equation is by unfolding.
-/
import proofs.«126127_j43026982371787_1_alg».proof.Proof.GraphKernel
import proofs.«126127_j43026982371787_1_alg».proof.Proof.GraphReference

noncomputable section

namespace Cert.Layer

open Idealize.ShloMosaic

variable {F : FTy → Type} [FloatOps F]

/-- Equal transformed features and equal edge arrays give equal aggregates, whichever program's text computes them. -/
theorem aggregate_same (h : (⟨Cert.KernelIdeal.S100000x64, .f32⟩ : BufTy).Contents (Elt F))
    (e : (⟨Cert.KernelIdeal.S2x1600000, .i32⟩ : BufTy).Contents (Elt F)) :
    Cert.KernelIdeal.Graph.aggregate (F := F) h e = Cert.ReferenceIdeal.Graph.aggregate (F := F) h e := rfl

end Cert.Layer

end
-- ==== Proof.HostProduct.lean ====
/-
  The host's `dot_general` of the features (100000 × 256) and the weights (256 × 64), contracting the features'
  columns against the weights' rows, is the matrix product entry by entry: at (r, c) it is the sum over the
  contraction index of features(r, k) · weights(k, c). The contraction shape has one axis of 256, so its index is a
  number k < 256; the operand indices at (r, c) and k are (r, k) and (k, c).
-/
import proofs.«126127_j43026982371787_1_alg».proof.ReferenceIdeal
import proofs.«126127_j43026982371787_1_alg».proof.Proof.Gen.ReferenceIdeal
import proofs.«126127_j43026982371787_1_alg».proof.Proof.Layer
import Idealize.ShloMosaic.Lib.ValueIdx
import Idealize.ShloMosaic.PureOps.Ideal.Laws

noncomputable section

namespace Cert.Layer

open Idealize.ShloMosaic

/-! ## The host's matrix product at an entry -/

/-- The left operand's index at output entry (r, c) and contraction index q is (r, q): its row. -/
theorem host_lhs_row (i : SOut.Idx) (q : Cert.ReferenceIdeal.dot_S100000x256_S256x64_S100000x64_1_0_0_1_n_n.contr.Idx) :
    (Cert.ReferenceIdeal.dot_S100000x256_S256x64_S100000x64_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x64_S100000x64_1_0_0_1_n_n.lhsBatch by decide), dif_pos (show (0 : Fin Cert.ReferenceIdeal.S100000x256.rank) ∈ Cert.ReferenceIdeal.dot_S100000x256_S256x64_S100000x64_1_0_0_1_n_n.lhsNonContracting by decide)]
  rfl
/-- … and its column, the contraction index. -/
theorem host_lhs_col (i : SOut.Idx) (q : Cert.ReferenceIdeal.dot_S100000x256_S256x64_S100000x64_1_0_0_1_n_n.contr.Idx) :
    (Cert.ReferenceIdeal.dot_S100000x256_S256x64_S100000x64_1_0_0_1_n_n.lhsIdx i q 1).val = (q ⟨0, by decide⟩).val :=
  Cert.ReferenceIdeal.dot_S100000x256_S256x64_S100000x64_1_0_0_1_n_n.lhsIdx_val_of_single rfl i q
/-- The right operand's index is (q, c): its row, the contraction index, -/
theorem host_rhs_row (i : SOut.Idx) (q : Cert.ReferenceIdeal.dot_S100000x256_S256x64_S100000x64_1_0_0_1_n_n.contr.Idx) :
    (Cert.ReferenceIdeal.dot_S100000x256_S256x64_S100000x64_1_0_0_1_n_n.rhsIdx i q 0).val = (q ⟨0, by decide⟩).val :=
  Cert.ReferenceIdeal.dot_S100000x256_S256x64_S100000x64_1_0_0_1_n_n.rhsIdx_val_of_single rfl i q
/-- … and its column. -/
theorem host_rhs_col (i : SOut.Idx) (q : Cert.ReferenceIdeal.dot_S100000x256_S256x64_S100000x64_1_0_0_1_n_n.contr.Idx) :
    (Cert.ReferenceIdeal.dot_S100000x256_S256x64_S100000x64_1_0_0_1_n_n.rhsIdx i q 1).val = (i 1).val := by
  unfold DotDims.rhsIdx
  rw [dif_neg (show ¬(1 : Fin Cert.ReferenceIdeal.S256x64.rank) ∈ Cert.ReferenceIdeal.dot_S100000x256_S256x64_S100000x64_1_0_0_1_n_n.rhsBatch by decide), dif_pos (show (1 : Fin Cert.ReferenceIdeal.S256x64.rank) ∈ Cert.ReferenceIdeal.dot_S100000x256_S256x64_S100000x64_1_0_0_1_n_n.rhsNonContracting by decide)]
  rfl

/-- The host's `dot_general` of the features and the weights is the matrix product, entry by entry. -/
theorem host_product (x : (⟨Cert.ReferenceIdeal.S100000x256, .f32⟩ : BufTy).Contents (Elt Ideal))
    (w : (⟨Cert.ReferenceIdeal.S256x64, .f32⟩ : BufTy).Contents (Elt Ideal)) :
    Host.dotGeneral (F := Ideal) (φ₁ := .f32) (φ₂ := .f32) Cert.ReferenceIdeal.dot_S100000x256_S256x64_S100000x64_1_0_0_1_n_n none x w = linear x w := by
  funext i
  unfold linear
  simp only [Host.dotGeneral]
  rw [Ideal.dotGeneral_apply, ← Equiv.sum_comp (ValueIdx.contrEquiv1 Cert.ReferenceIdeal.dot_S100000x256_S256x64_S100000x64_1_0_0_1_n_n 256 rfl rfl).symm]
  refine Finset.sum_congr rfl fun k _ => ?_
  have hk := ValueIdx.contrEquiv1_symm_val Cert.ReferenceIdeal.dot_S100000x256_S256x64_S100000x64_1_0_0_1_n_n 256 rfl rfl k
  have el : Cert.ReferenceIdeal.dot_S100000x256_S256x64_S100000x64_1_0_0_1_n_n.lhsIdx i ((ValueIdx.contrEquiv1 Cert.ReferenceIdeal.dot_S100000x256_S256x64_S100000x64_1_0_0_1_n_n 256 rfl rfl).symm k) = inAt i k := funext fun a => Fin.ext (by
    match a with
    | ⟨0, _⟩ => exact host_lhs_row _ _
    | ⟨1, _⟩ => exact (host_lhs_col _ _).trans hk)
  have er : Cert.ReferenceIdeal.dot_S100000x256_S256x64_S100000x64_1_0_0_1_n_n.rhsIdx i ((ValueIdx.contrEquiv1 Cert.ReferenceIdeal.dot_S100000x256_S256x64_S100000x64_1_0_0_1_n_n 256 rfl rfl).symm k) = wtAt i k := funext fun a => Fin.ext (by
    match a with
    | ⟨0, _⟩ => exact (host_rhs_row _ _).trans hk
    | ⟨1, _⟩ => exact host_rhs_col _ _)
  rw [el, er]

end Cert.Layer

end
-- ==== Proof.Readings.lean ====
/-
  Three readings at one entry (r, c) of the 100000 × 64 array. The kernel's bias row — the 64 biases reshaped to
  1 × 64 — read under column c is bias(c). The reference's bias, broadcast to one row and then to every row, read at
  (r, c) is bias(c) too. The reference's zero, a scalar broadcast to the whole array, is that scalar at every entry.
-/
import proofs.«126127_j43026982371787_1_alg».proof.KernelIdeal
import proofs.«126127_j43026982371787_1_alg».proof.ReferenceIdeal
import proofs.«126127_j43026982371787_1_alg».proof.Proof.Gen.KernelIdeal
import proofs.«126127_j43026982371787_1_alg».proof.Proof.Gen.ReferenceIdeal
import proofs.«126127_j43026982371787_1_alg».proof.Proof.Layer
import Idealize.ShloMosaic.Lib.Pipeline.Value
import Idealize.ShloMosaic.Lib.ValueIdx

noncomputable section

namespace Cert.Layer

open Idealize.ShloMosaic

/-! ## The bias under an entry, and the zero -/

/-- Column c of the bias. -/
abbrev biasIdx (i : SOut.Idx) : Cert.KernelIdeal.S64.Idx := fun a => match a with
  | ⟨0, _⟩ => ⟨(i 1).val, (i 1).isLt⟩

/-- The kernel's bias row under (r, c) is bias(c). -/
theorem kernel_bias_at (b : Cert.KernelIdeal.S64.Idx → EReal) (i : SOut.Idx) :
    shapeCast Cert.KernelIdeal.S1x64 b Cert.KernelIdeal.Facts₀.shapeCasts_S64_S1x64 (rowAt i) = b (biasIdx i) :=
  (shapeCast_addUnit_apply ![64] b Cert.KernelIdeal.Facts₀.shapeCasts_S64_S1x64 (rowAt i)).trans
    (congrArg b (funext fun a => by
      match a with
      | ⟨0, _⟩ => rfl))

/-- The reference's bias, broadcast to one row and then to every row, at (r, c) is bias(c). -/
theorem reference_bias_at (b : Cert.ReferenceIdeal.S64.Idx → EReal) (i : SOut.Idx) :
    broadcastInDim Cert.ReferenceIdeal.S100000x64 ![0, 1] Cert.ReferenceIdeal.Facts₀.bcast_S1x64_S100000x64_0_1
      (broadcastInDim Cert.ReferenceIdeal.S1x64 ![1] Cert.ReferenceIdeal.Facts₀.bcast_S64_S1x64_1 b) i = b (biasIdx i) :=
  (broadcastInDim_apply ![0, 1] Cert.ReferenceIdeal.Facts₀.bcast_S1x64_S100000x64_0_1
      (broadcastInDim Cert.ReferenceIdeal.S1x64 ![1] Cert.ReferenceIdeal.Facts₀.bcast_S64_S1x64_1 b) i (rowAt i) (fun a => by
        match a with
        | ⟨0, _⟩ => rfl
        | ⟨1, _⟩ => rfl)).trans
    (broadcastInDim_apply ![1] Cert.ReferenceIdeal.Facts₀.bcast_S64_S1x64_1 b (rowAt i) (biasIdx i) (fun a => by
        match a with
        | ⟨0, _⟩ => rfl))

/-- The reference's zero, a scalar broadcast to the array, is that scalar at every entry. -/
theorem reference_zero_at (i : SOut.Idx) :
    broadcastInDim Cert.ReferenceIdeal.S100000x64 ![] Cert.ReferenceIdeal.Facts₀.bcast_S_S100000x64
      (constant (F := Ideal) Cert.ReferenceIdeal.S_ .f32 0x00000000#32) i = Ideal.ofBits .f32 0x00000000#32 :=
  broadcastInDim_apply ![] Cert.ReferenceIdeal.Facts₀.bcast_S_S100000x64
    (constant (F := Ideal) Cert.ReferenceIdeal.S_ .f32 0x00000000#32) i (fun a => a.elim0) (fun a => a.elim0)

end Cert.Layer

end
-- ==== Proof.ResultsSame.lean ====
/-
  The two programs' results are one function of the arguments, entry by entry, on the extended reals.
  Both are max (aggregate + bias, 0) with the same graph function `aggregate` (GraphSame), so three readings are
  left: the host's `dot_general` is the matrix product the kernel's blocks add up to (HostProduct); the kernel's
  bias row under column c and the reference's twice-broadcast bias at (r, c) are both bias(c); and the reference's
  broadcast zero is that scalar at every entry (Readings). No law beyond these readings is used: in particular
  nothing needs the inputs to be finite.
-/
import proofs.«126127_j43026982371787_1_alg».proof.Proof.KernelResult
import proofs.«126127_j43026982371787_1_alg».proof.Proof.ReferenceResult
import proofs.«126127_j43026982371787_1_alg».proof.Proof.GraphSame
import proofs.«126127_j43026982371787_1_alg».proof.Proof.HostProduct
import proofs.«126127_j43026982371787_1_alg».proof.Proof.Readings

noncomputable section

namespace Cert.Layer

open Idealize.ShloMosaic

/-- The idealized kernel's result and the idealized reference's result are one function of the four arguments. -/
theorem results_same (x : (⟨Cert.ReferenceIdeal.S100000x256, .f32⟩ : BufTy).Contents (Elt Ideal))
    (e : (⟨Cert.ReferenceIdeal.S2x1600000, .i32⟩ : BufTy).Contents (Elt Ideal))
    (w : (⟨Cert.ReferenceIdeal.S256x64, .f32⟩ : BufTy).Contents (Elt Ideal))
    (b : (⟨Cert.ReferenceIdeal.S64, .f32⟩ : BufTy).Contents (Elt Ideal)) :
    Cert.ReferenceIdeal.Whole.result (F := Ideal) x e w b = Cert.KernelIdeal.Whole.result x e w b := by
  unfold Cert.ReferenceIdeal.Whole.result Cert.KernelIdeal.Whole.result
  rw [host_product x w, ← aggregate_same (F := Ideal) (linear x w) e]
  generalize Cert.KernelIdeal.Graph.aggregate (F := Ideal) (linear x w) e = A
  funext i
  unfold biasRelu
  -- the vector operations read at the entry first, so that what is left is an equation between entry operations;
  -- then the three readings at (r, c), joined by congruence: no term is searched for and nothing is unfolded, so the
  -- float word for zero is never evaluated
  rw [ValueIdx.maximumf_apply, ValueIdx.addf_apply]
  have hbias : broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 b) i
      = shapeCast Cert.KernelIdeal.S1x64 b Cert.KernelIdeal.Facts₀.shapeCasts_S64_S1x64 (rowAt i) :=
    (reference_bias_at b i).trans (kernel_bias_at b i).symm
  exact congrArg₂ (fun u v : EReal => max ((A i : EReal) + u) v) hbias (reference_zero_at i)

end Cert.Layer

end
-- ==== Proof.lean ====
/-
  A graph-convolution layer with self loops, symmetric degree normalisation, bias and a rectifier, over 100000
  nodes with 256 input and 64 output features and 1600000 edges:
      out = max (aggregate (x · W) + b, 0).
  The kernel computes x · W in a pipelined region (20 blocks of 5000 rows, each a matrix product on operands
  narrowed to bf16 into a zero accumulator), the graph side on the host (self loops, degrees by a scatter-add of
  ones, reciprocal square roots of the positive degrees, a gather of source rows scaled per message, a scatter-add
  into the target rows), and the bias and the rectifier in a second pipelined region (10 blocks of 10000 rows).
  The reference computes x · W by one host `dot_general`, the same graph side by the same operations on the same
  literals, and adds the broadcast bias and takes the maximum with a broadcast zero on the host.

  On the extended reals the two are one function of the arguments. Narrowing to bf16 is the identity there; each
  block of the first region is the corresponding rows of the whole product, and the blocks cover the array
  (module Linear); the host's `dot_general` is the same sum over the contraction index (ResultsSame); the graph
  side is one function `aggregate` of the product and the edge array in both programs (GraphKernel,
  GraphReference, GraphSame, Between) and is never opened; each block of the second region is the corresponding
  rows of max (aggregate + bias, 0), and those blocks cover the array (Activation); the reshaped bias row under
  column c and the twice-broadcast bias at (r, c) are both bias(c). No step moves a factor across a sum or cancels
  anything, so finiteness of the inputs is not used.

  The three frame claims: both kernel programs run by the generated frame certificates; the reference, a host
  program, by its run with the result dropped. The idealization rewrote no operation, so `preserves` is trivial.
-/
import proofs.«126127_j43026982371787_1_alg».proof.Defs
import proofs.«126127_j43026982371787_1_alg».proof.Proof.Gen.Kernel
import proofs.«126127_j43026982371787_1_alg».proof.Proof.Gen.Kernel.Skeleton
import proofs.«126127_j43026982371787_1_alg».proof.Proof.Gen.Kernel.Launch
import proofs.«126127_j43026982371787_1_alg».proof.Proof.Gen.Kernel.Points
import proofs.«126127_j43026982371787_1_alg».proof.Proof.Gen.Kernel.Frame
import proofs.«126127_j43026982371787_1_alg».proof.Proof.Gen.KernelIdeal
import proofs.«126127_j43026982371787_1_alg».proof.Proof.Gen.KernelIdeal.Skeleton
import proofs.«126127_j43026982371787_1_alg».proof.Proof.Gen.KernelIdeal.Launch
import proofs.«126127_j43026982371787_1_alg».proof.Proof.Gen.KernelIdeal.Points
import proofs.«126127_j43026982371787_1_alg».proof.Proof.Gen.KernelIdeal.Frame
import proofs.«126127_j43026982371787_1_alg».proof.Proof.Gen.ReferenceIdeal
import proofs.«126127_j43026982371787_1_alg».proof.Proof.Gen.Pre_finite_inputs
import proofs.«126127_j43026982371787_1_alg».proof.Proof.RefRun
import proofs.«126127_j43026982371787_1_alg».proof.Proof.KernelResult
import proofs.«126127_j43026982371787_1_alg».proof.Proof.ReferenceResult
import proofs.«126127_j43026982371787_1_alg».proof.Proof.ResultsSame
import Idealize.ShloMosaic.Adequacy
import Idealize.ShloMosaic.Init

noncomputable section

namespace Cert.Proof

open Idealize.ShloMosaic Idealize.ShloMosaic.TcCoe Idealize.SL.Sem

/-- The kernel as printed runs to completion with its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs to completion with its arguments unchanged: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with the layer's value of those arguments
    in their result arrays: the kernel's by its run read through its two regions and the host operations between
    them, the reference's by its run, and the two functions of the arguments are one. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Whole.final_eq m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Whole.res_eq, (hagree c).1, (hagree c).2.1, (hagree c).2.2.1, (hagree c).2.2.2]
    exact Cert.Layer.results_same _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
